-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v58)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v58) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v65) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S512x128 : Shape := ⟨2, ![512, 128]⟩
abbrev S512 : Shape := ⟨1, ![512]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S512x128 : S_.BroadcastsInDim S512x128 (![] : Fin 0 → Fin S512x128.rank)
  reducesTo_S512x128_S_d0_1 : S512x128.ReducesTo [0, 1] S_
  bcast_S_S512 : S_.BroadcastsInDim S512 (![] : Fin 0 → Fin S512.rank)
  reducesTo_S512_S_d0 : S512.ReducesTo [0] S_

variable [Facts]

def fn {F : FTy → Type} [FloatOps F] (main_arg0 : FVec F S50000x128 .f32) (main_arg1 : IVec S2x800000 32) (main_arg2 : FVec F S512x128 .f32) (main_arg3 : FVec F S512 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S512x128 .f32 := Host.absf main_arg2
  let main_cst_0 : FVec F S_ .f32 := constant S_ .f32 0x7F800000#32
  let main_v5 : FVec F S512x128 .f32 := broadcastInDim S512x128 ![] bcast_S_S512x128 main_cst_0
  let main_v6 : IVec S512x128 1 := cmpf .olt main_v4 main_v5
  let main_c_1 : IVec S_ 1 := constantI S_ 1 1#1
  let main_v7 : IVec S_ 1 := (fun x v => Host.reduce IntOp.andi x v reducesTo_S512x128_S_d0_1 h_S_) main_v6 main_c_1
  let main_v8 : IVec S_ 1 := andi main_v3 main_v7
  let main_v9 : FVec F S512 .f32 := Host.absf main_arg3
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  main_v13
-- ==== Kernel.lean ====
abbrev S50000x128 : Shape := ⟨2, ![50000, 128]⟩
abbrev S2x800000 : Shape := ⟨2, ![2, 800000]⟩
abbrev S512x128 : Shape := ⟨2, ![512, 128]⟩
abbrev S512 : Shape := ⟨1, ![512]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S850000x128 : Shape := ⟨2, ![850000, 128]⟩
abbrev S128x512 : Shape := ⟨2, ![128, 512]⟩
abbrev S1x512 : Shape := ⟨2, ![1, 512]⟩
abbrev S50000x512 : Shape := ⟨2, ![50000, 512]⟩
abbrev S2000x128 : Shape := ⟨2, ![2000, 128]⟩
abbrev S2000x512 : Shape := ⟨2, ![2000, 512]⟩

abbrev nBuf : Space → Nat
  | .hbm => 79
  | .vmem => 6
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S512x128, .f32⟩
  | .hbm, ⟨3, _⟩ => ⟨S512, .f32⟩
  | .hbm, ⟨4, _⟩ => ⟨S50000, .i32⟩
  | .hbm, ⟨5, _⟩ => ⟨S1x800000, .i32⟩
  | .hbm, ⟨6, _⟩ => ⟨S800000, .i32⟩
  | .hbm, ⟨7, _⟩ => ⟨S850000, .i32⟩
  | .hbm, ⟨8, _⟩ => ⟨S1x800000, .i32⟩
  | .hbm, ⟨9, _⟩ => ⟨S800000, .i32⟩
  | .hbm, ⟨10, _⟩ => ⟨S850000, .i32⟩
  | .hbm, ⟨11, _⟩ => ⟨S_, .f32⟩
  | .hbm, ⟨12, _⟩ => ⟨S850000, .f32⟩
  | .hbm, ⟨13, _⟩ => ⟨S_, .f32⟩
  | .hbm, ⟨14, _⟩ => ⟨S50000, .f32⟩
  | .hbm, ⟨15, _⟩ => ⟨S850000x1, .i32⟩
  | .hbm, ⟨16, _⟩ => ⟨S50000, .f32⟩
  | .hbm, ⟨17, _⟩ => ⟨S_, .f32⟩
  | .hbm, ⟨18, _⟩ => ⟨S50000, .f32⟩
  | .hbm, ⟨19, _⟩ => ⟨S50000, .i1⟩
  | .hbm, ⟨20, _⟩ => ⟨S50000, .f32⟩
  | .hbm, ⟨21, _⟩ => ⟨S_, .f32⟩
  | .hbm, ⟨22, _⟩ => ⟨S_, .f32⟩
  | .hbm, ⟨23, _⟩ => ⟨S50000, .f32⟩
  | .hbm, ⟨24, _⟩ => ⟨S50000, .f32⟩
  | .hbm, ⟨25, _⟩ => ⟨S_, .i32⟩
  | .hbm, ⟨26, _⟩ => ⟨S850000, .i32⟩
  | .hbm, ⟨27, _⟩ => ⟨S850000, .i1⟩
  | .hbm, ⟨28, _⟩ => ⟨S_, .i32⟩
  | .hbm, ⟨29, _⟩ => ⟨S850000, .i32⟩
  | .hbm, ⟨30, _⟩ => ⟨S850000, .i32⟩
  | .hbm, ⟨31, _⟩ => ⟨S850000, .i32⟩
  | .hbm, ⟨32, _⟩ => ⟨S850000x1, .i32⟩
  | .hbm, ⟨33, _⟩ => ⟨S850000, .f32⟩
  | .hbm, ⟨34, _⟩ => ⟨S_, .i32⟩
  | .hbm, ⟨35, _⟩ => ⟨S850000, .i32⟩
  | .hbm, ⟨36, _⟩ => ⟨S850000, .i1⟩
  | .hbm, ⟨37, _⟩ => ⟨S_, .i32⟩
  | .hbm, ⟨38, _⟩ => ⟨S850000, .i32⟩
  | .hbm, ⟨39, _⟩ => ⟨S850000, .i32⟩
  | .hbm, ⟨40, _⟩ => ⟨S850000, .i32⟩
  | .hbm, ⟨41, _⟩ => ⟨S850000x1, .i32⟩
  | .hbm, ⟨42, _⟩ => ⟨S850000, .f32⟩
  | .hbm, ⟨43, _⟩ => ⟨S850000, .f32⟩
  | .hbm, ⟨44, _⟩ => ⟨S850000x1, .f32⟩
  | .hbm, ⟨45, _⟩ => ⟨S_, .i32⟩
  | .hbm, ⟨46, _⟩ => ⟨S850000, .i32⟩
  | .hbm, ⟨47, _⟩ => ⟨S850000, .i1⟩
  | .hbm, ⟨48, _⟩ => ⟨S_, .i32⟩
  | .hbm, ⟨49, _⟩ => ⟨S850000, .i32⟩
  | .hbm, ⟨50, _⟩ => ⟨S850000, .i32⟩
  | .hbm, ⟨51, _⟩ => ⟨S850000, .i32⟩
  | .hbm, ⟨52, _⟩ => ⟨S850000x1, .i32⟩
  | .hbm, ⟨53, _⟩ => ⟨S850000x128, .f32⟩
  | .hbm, ⟨54, _⟩ => ⟨S850000x128, .f32⟩
  | .hbm, ⟨55, _⟩ => ⟨S850000x128, .f32⟩
  | .hbm, ⟨56, _⟩ => ⟨S_, .f32⟩
  | .hbm, ⟨57, _⟩ => ⟨S50000x128, .f32⟩
  | .hbm, ⟨58, _⟩ => ⟨S850000x1, .i32⟩
  | .hbm, ⟨59, _⟩ => ⟨S50000x128, .f32⟩
  | .hbm, ⟨60, _⟩ => ⟨S850000x1, .f32⟩
  | .hbm, ⟨61, _⟩ => ⟨S_, .i32⟩
  | .hbm, ⟨62, _⟩ => ⟨S850000, .i32⟩
  | .hbm, ⟨63, _⟩ => ⟨S850000, .i1⟩
  | .hbm, ⟨64, _⟩ => ⟨S_, .i32⟩
  | .hbm, ⟨65, _⟩ => ⟨S850000, .i32⟩
  | .hbm, ⟨66, _⟩ => ⟨S850000, .i32⟩
  | .hbm, ⟨67, _⟩ => ⟨S850000, .i32⟩
  | .hbm, ⟨68, _⟩ => ⟨S850000x1, .i32⟩
  | .hbm, ⟨69, _⟩ => ⟨S850000x128, .f32⟩
  | .hbm, ⟨70, _⟩ => ⟨S850000x128, .f32⟩
  | .hbm, ⟨71, _⟩ => ⟨S850000x128, .f32⟩
  | .hbm, ⟨72, _⟩ => ⟨S_, .f32⟩
  | .hbm, ⟨73, _⟩ => ⟨S50000x128, .f32⟩
  | .hbm, ⟨74, _⟩ => ⟨S850000x1, .i32⟩
  | .hbm, ⟨75, _⟩ => ⟨S50000x128, .f32⟩
  | .hbm, ⟨76, _⟩ => ⟨S128x512, .f32⟩
  | .hbm, ⟨77, _⟩ => ⟨S1x512, .f32⟩
  | .hbm, ⟨78, _⟩ => ⟨S50000x512, .f32⟩
  | .local _ .vmem, ⟨0, _⟩ => ⟨S2000x128, .f32⟩
  | .local _ .vmem, ⟨1, _⟩ => ⟨S2000x128, .f32⟩
  | .local _ .vmem, ⟨2, _⟩ => ⟨S128x512, .f32⟩
  | .local _ .vmem, ⟨3, _⟩ => ⟨S1x512, .f32⟩
  | .local _ .vmem, ⟨4, _⟩ => ⟨S2000x512, .f32⟩
  | .local _ .vmem, ⟨5, _⟩ => ⟨S2000x512, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_call0_v0 : Ref sig .tc := ⟨.hbm, 22, rfl⟩
abbrev main_call0_v1 : Ref sig .tc := ⟨.hbm, 23, rfl⟩
abbrev main_v14 : Ref sig .tc := ⟨.hbm, 24, rfl⟩
abbrev main_c : Ref sig .tc := ⟨.hbm, 25, rfl⟩
abbrev main_v15 : Ref sig .tc := ⟨.hbm, 26, rfl⟩
abbrev main_v16 : Ref sig .tc := ⟨.hbm, 27, rfl⟩
abbrev main_c_3 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_c_4 : Ref sig .tc := ⟨.hbm, 34, rfl⟩
abbrev main_v22 : Ref sig .tc := ⟨.hbm, 35, rfl⟩
abbrev main_v23 : Ref sig .tc := ⟨.hbm, 36, rfl⟩
abbrev main_c_5 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_c_6 : Ref sig .tc := ⟨.hbm, 45, rfl⟩
abbrev main_v31 : Ref sig .tc := ⟨.hbm, 46, rfl⟩
abbrev main_v32 : Ref sig .tc := ⟨.hbm, 47, rfl⟩
abbrev main_c_7 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_cst_8 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_c_9 : Ref sig .tc := ⟨.hbm, 61, rfl⟩
abbrev main_v44 : Ref sig .tc := ⟨.hbm, 62, rfl⟩
abbrev main_v45 : Ref sig .tc := ⟨.hbm, 63, rfl⟩
abbrev main_c_10 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_cst_11 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  transposes_S512x128_S128x512_1_0 : S512x128.Transposes [1, 0] S128x512
  shapeCasts_S512_S1x512 : S512.ShapeCasts S1x512
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  bitsLt_bf16_f32 : FTy.bits .bf16 < FTy.bits .f32
  inb_S128x512_S128x512_0_0 : ∀ a, (![0, 0] : Fin 2 → Nat) a + S128x512.size a ≤ S128x512.size a
  h_S128x512 : 0 < S128x512.numel
  shapeCasts_S128x512_S128x512 : S128x512.ShapeCasts S128x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S2000x512 : S1x512.Broadcasts S2000x512
  inb_S2000x512_S2000x512_0_0 : ∀ a, (![0, 0] : Fin 2 → Nat) a + S2000x512.size a ≤ S2000x512.size a
  h_S2000x512 : 0 < S2000x512.numel
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S2000x128_S128x512_S2000x512_1_0_0_1_n_n_wf : DotDims.WF S2000x128 S128x512 S2000x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x512.size a ≤ S128x512.size a
  hwx0_1 : ∀ i : grid0.Coords, EltTy.bits .f32 = 32 ∨ (Rect.block (s := S128x512) S128x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x512.size a ≤ S50000x512.size a
  hwx0_3 : ∀ i : grid0.Coords, EltTy.bits .f32 = 32 ∨ (Rect.block (s := S50000x512) S2000x512.size (cc0_transform_3 i) (hinb0_3 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S2000x128_S128x512_S2000x512_1_0_0_1_n_n : DotDims S2000x128 S128x512 S2000x512 where
  lhsContracting := [1]
  rhsContracting := [0]
  lhsNonContracting := [0]
  rhsNonContracting := [1]
  lhsBatch := []
  rhsBatch := []
  wf := dot_S2000x128_S128x512_S2000x512_1_0_0_1_n_n_wf

abbrev win0_0 : Pipeline.Window sig grid0 :=
  Pipeline.Window.ofSpec (Memref.whole main_v55) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v56) S128x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v57) S1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v58) S2000x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S512x128 : Shape := ⟨2, ![512, 128]⟩
abbrev S512 : Shape := ⟨1, ![512]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S850000x128 : Shape := ⟨2, ![850000, 128]⟩
abbrev S128x512 : Shape := ⟨2, ![128, 512]⟩
abbrev S50000x512 : Shape := ⟨2, ![50000, 512]⟩
abbrev S1x512 : Shape := ⟨2, ![1, 512]⟩

abbrev nBuf : Space → Nat
  | .hbm => 88
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S512x128, .f32⟩
  | .hbm, ⟨3, _⟩ => ⟨S512, .f32⟩
  | .hbm, ⟨4, _⟩ => ⟨S50000, .i32⟩
  | .hbm, ⟨5, _⟩ => ⟨S1x800000, .i32⟩
  | .hbm, ⟨6, _⟩ => ⟨S800000, .i32⟩
  | .hbm, ⟨7, _⟩ => ⟨S850000, .i32⟩
  | .hbm, ⟨8, _⟩ => ⟨S1x800000, .i32⟩
  | .hbm, ⟨9, _⟩ => ⟨S800000, .i32⟩
  | .hbm, ⟨10, _⟩ => ⟨S850000, .i32⟩
  | .hbm, ⟨11, _⟩ => ⟨S_, .f32⟩
  | .hbm, ⟨12, _⟩ => ⟨S850000, .f32⟩
  | .hbm, ⟨13, _⟩ => ⟨S_, .f32⟩
  | .hbm, ⟨14, _⟩ => ⟨S50000, .f32⟩
  | .hbm, ⟨15, _⟩ => ⟨S850000x1, .i32⟩
  | .hbm, ⟨16, _⟩ => ⟨S50000, .f32⟩
  | .hbm, ⟨17, _⟩ => ⟨S_, .f32⟩
  | .hbm, ⟨18, _⟩ => ⟨S50000, .f32⟩
  | .hbm, ⟨19, _⟩ => ⟨S50000, .i1⟩
  | .hbm, ⟨20, _⟩ => ⟨S50000, .f32⟩
  | .hbm, ⟨21, _⟩ => ⟨S_, .f32⟩
  | .hbm, ⟨22, _⟩ => ⟨S_, .f32⟩
  | .hbm, ⟨23, _⟩ => ⟨S50000, .f32⟩
  | .hbm, ⟨24, _⟩ => ⟨S50000, .f32⟩
  | .hbm, ⟨25, _⟩ => ⟨S_, .i32⟩
  | .hbm, ⟨26, _⟩ => ⟨S850000, .i32⟩
  | .hbm, ⟨27, _⟩ => ⟨S850000, .i1⟩
  | .hbm, ⟨28, _⟩ => ⟨S_, .i32⟩
  | .hbm, ⟨29, _⟩ => ⟨S850000, .i32⟩
  | .hbm, ⟨30, _⟩ => ⟨S850000, .i32⟩
  | .hbm, ⟨31, _⟩ => ⟨S850000, .i32⟩
  | .hbm, ⟨32, _⟩ => ⟨S850000x1, .i32⟩
  | .hbm, ⟨33, _⟩ => ⟨S850000, .f32⟩
  | .hbm, ⟨34, _⟩ => ⟨S_, .i32⟩
  | .hbm, ⟨35, _⟩ => ⟨S850000, .i32⟩
  | .hbm, ⟨36, _⟩ => ⟨S850000, .i1⟩
  | .hbm, ⟨37, _⟩ => ⟨S_, .i32⟩
  | .hbm, ⟨38, _⟩ => ⟨S850000, .i32⟩
  | .hbm, ⟨39, _⟩ => ⟨S850000, .i32⟩
  | .hbm, ⟨40, _⟩ => ⟨S850000, .i32⟩
  | .hbm, ⟨41, _⟩ => ⟨S850000x1, .i32⟩
  | .hbm, ⟨42, _⟩ => ⟨S850000, .f32⟩
  | .hbm, ⟨43, _⟩ => ⟨S850000, .f32⟩
  | .hbm, ⟨44, _⟩ => ⟨S850000x1, .f32⟩
  | .hbm, ⟨45, _⟩ => ⟨S_, .i32⟩
  | .hbm, ⟨46, _⟩ => ⟨S850000, .i32⟩
  | .hbm, ⟨47, _⟩ => ⟨S850000, .i1⟩
  | .hbm, ⟨48, _⟩ => ⟨S_, .i32⟩
  | .hbm, ⟨49, _⟩ => ⟨S850000, .i32⟩
  | .hbm, ⟨50, _⟩ => ⟨S850000, .i32⟩
  | .hbm, ⟨51, _⟩ => ⟨S850000, .i32⟩
  | .hbm, ⟨52, _⟩ => ⟨S850000x1, .i32⟩
  | .hbm, ⟨53, _⟩ => ⟨S850000x128, .f32⟩
  | .hbm, ⟨54, _⟩ => ⟨S850000x128, .f32⟩
  | .hbm, ⟨55, _⟩ => ⟨S850000x128, .f32⟩
  | .hbm, ⟨56, _⟩ => ⟨S_, .f32⟩
  | .hbm, ⟨57, _⟩ => ⟨S50000x128, .f32⟩
  | .hbm, ⟨58, _⟩ => ⟨S850000x1, .i32⟩
  | .hbm, ⟨59, _⟩ => ⟨S50000x128, .f32⟩
  | .hbm, ⟨60, _⟩ => ⟨S850000x1, .f32⟩
  | .hbm, ⟨61, _⟩ => ⟨S_, .i32⟩
  | .hbm, ⟨62, _⟩ => ⟨S850000, .i32⟩
  | .hbm, ⟨63, _⟩ => ⟨S850000, .i1⟩
  | .hbm, ⟨64, _⟩ => ⟨S_, .i32⟩
  | .hbm, ⟨65, _⟩ => ⟨S850000, .i32⟩
  | .hbm, ⟨66, _⟩ => ⟨S850000, .i32⟩
  | .hbm, ⟨67, _⟩ => ⟨S850000, .i32⟩
  | .hbm, ⟨68, _⟩ => ⟨S850000x1, .i32⟩
  | .hbm, ⟨69, _⟩ => ⟨S850000x128, .f32⟩
  | .hbm, ⟨70, _⟩ => ⟨S850000x128, .f32⟩
  | .hbm, ⟨71, _⟩ => ⟨S850000x128, .f32⟩
  | .hbm, ⟨72, _⟩ => ⟨S_, .f32⟩
  | .hbm, ⟨73, _⟩ => ⟨S50000x128, .f32⟩
  | .hbm, ⟨74, _⟩ => ⟨S850000x1, .i32⟩
  | .hbm, ⟨75, _⟩ => ⟨S50000x128, .f32⟩
  | .hbm, ⟨76, _⟩ => ⟨S128x512, .f32⟩
  | .hbm, ⟨77, _⟩ => ⟨S50000x512, .f32⟩
  | .hbm, ⟨78, _⟩ => ⟨S1x512, .f32⟩
  | .hbm, ⟨79, _⟩ => ⟨S50000x512, .f32⟩
  | .hbm, ⟨80, _⟩ => ⟨S50000x512, .f32⟩
  | .hbm, ⟨81, _⟩ => ⟨S_, .f32⟩
  | .hbm, ⟨82, _⟩ => ⟨S50000x512, .f32⟩
  | .hbm, ⟨83, _⟩ => ⟨S50000x512, .i1⟩
  | .hbm, ⟨84, _⟩ => ⟨S_, .f32⟩
  | .hbm, ⟨85, _⟩ => ⟨S50000x512, .f32⟩
  | .hbm, ⟨86, _⟩ => ⟨S50000x512, .f32⟩
  | .hbm, ⟨87, _⟩ => ⟨S50000x512, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_call0_v0 : Ref sig .tc := ⟨.hbm, 22, rfl⟩
abbrev main_call0_v1 : Ref sig .tc := ⟨.hbm, 23, rfl⟩
abbrev main_v14 : Ref sig .tc := ⟨.hbm, 24, rfl⟩
abbrev main_c : Ref sig .tc := ⟨.hbm, 25, rfl⟩
abbrev main_v15 : Ref sig .tc := ⟨.hbm, 26, rfl⟩
abbrev main_v16 : Ref sig .tc := ⟨.hbm, 27, rfl⟩
abbrev main_c_3 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_c_4 : Ref sig .tc := ⟨.hbm, 34, rfl⟩
abbrev main_v22 : Ref sig .tc := ⟨.hbm, 35, rfl⟩
abbrev main_v23 : Ref sig .tc := ⟨.hbm, 36, rfl⟩
abbrev main_c_5 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_c_6 : Ref sig .tc := ⟨.hbm, 45, rfl⟩
abbrev main_v31 : Ref sig .tc := ⟨.hbm, 46, rfl⟩
abbrev main_v32 : Ref sig .tc := ⟨.hbm, 47, rfl⟩
abbrev main_c_7 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_cst_8 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_c_9 : Ref sig .tc := ⟨.hbm, 61, rfl⟩
abbrev main_v44 : Ref sig .tc := ⟨.hbm, 62, rfl⟩
abbrev main_v45 : Ref sig .tc := ⟨.hbm, 63, rfl⟩
abbrev main_c_10 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_cst_11 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_cst_12 : Ref sig .tc := ⟨.hbm, 81, rfl⟩
abbrev main_v61 : Ref sig .tc := ⟨.hbm, 82, rfl⟩
abbrev main_v62 : Ref sig .tc := ⟨.hbm, 83, rfl⟩
abbrev main_cst_13 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  transposes_S512x128_S128x512_1_0 : S512x128.Transposes [1, 0] S128x512
  bcast_S512_S1x512_1 : S512.BroadcastsInDim S1x512 (![1] : Fin 1 → Fin S1x512.rank)
  bcast_S1x512_S50000x512_0_1 : S1x512.BroadcastsInDim S50000x512 (![0, 1] : Fin 2 → Fin S50000x512.rank)
  bcast_S_S50000x512 : S_.BroadcastsInDim S50000x512 (![] : Fin 0 → Fin S50000x512.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S50000x128_S128x512_S50000x512_1_0_0_1_n_n_wf : DotDims.WF S50000x128 S128x512 S50000x512 [1] [0] [0] [1] [] []

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S50000x128_S128x512_S50000x512_1_0_0_1_n_n : DotDims S50000x128 S128x512 S50000x512 where
  lhsContracting := [1]
  rhsContracting := [0]
  lhsNonContracting := [0]
  rhsNonContracting := [1]
  lhsBatch := []
  rhsBatch := []
  wf := dot_S50000x128_S128x512_S50000x512_1_0_0_1_n_n_wf

class Facts : Prop extends Facts₀ where

variable [Facts]
-- ==== Proof.Dense.lean ====
/-
  A dense layer followed by a leaky rectifier, on the extended reals.

  For a feature matrix `H` (50000 × 128), a weight matrix `Wt` (128 × 512: the weights already transposed) and a
  bias `b` (512 entries), entry `(p, q)` of the result is `ℓ (∑ k, H[p, k] · Wt[k, q] + b[q])`, where the rectifier
  `ℓ y` is `y` when `y ≥ 0` and `s · y` otherwise.  The slope `s` is the single-precision word `0x3DCCCCCD` (the
  float nearest one tenth) and the threshold the zero word; both are kept as words: the same words stand on both sides
  of the comparison this certificate makes, so neither is ever evaluated.

  The sum is a sum in the commutative monoid of extended reals, so no finiteness of `H`, `Wt` or `b` is asked.
-/
import Idealize.ShloMosaic.PureOps.Ideal
import Idealize.ShloMosaic.Lib.ValueIdx

noncomputable section

namespace Cert.Dense

open Idealize.ShloMosaic Idealize.ShloMosaic.ValueIdx

/-- The leaky rectifier with slope one tenth (as a single-precision word): `y` where `y ≥ 0`, `s · y` elsewhere. -/
def leaky (y : Ideal .f32) : Ideal .f32 :=
  Scalar.select (FloatOps.cmpf .oge y (FloatOps.ofBits .f32 0x00000000#32)) y
    (FloatOps.mulf (FloatOps.ofBits .f32 0x3DCCCCCD#32) y)

/-- The pre-activation at `(p, q)`: row `p` of the features against column `q` of the transposed weights, plus the
    bias at `q`. -/
def affine (H : (⟨2, ![50000, 128]⟩ : Shape).Idx → Ideal .f32) (Wt : (⟨2, ![128, 512]⟩ : Shape).Idx → Ideal .f32)
    (b : Fin 512 → Ideal .f32) (p : Fin 50000) (q : Fin 512) : Ideal .f32 :=
  (∑ k : Fin 128, H (ix2 p k) * Wt (ix2 k q)) + b q

/-- The layer: the rectifier of the pre-activation, entry by entry. -/
def dense (H : (⟨2, ![50000, 128]⟩ : Shape).Idx → Ideal .f32) (Wt : (⟨2, ![128, 512]⟩ : Shape).Idx → Ideal .f32)
    (b : Fin 512 → Ideal .f32) : (⟨2, ![50000, 512]⟩ : Shape).Idx → Ideal .f32 :=
  fun i => leaky (affine H Wt b (i 0) (i 1))

theorem dense_apply (H : (⟨2, ![50000, 128]⟩ : Shape).Idx → Ideal .f32) (Wt : (⟨2, ![128, 512]⟩ : Shape).Idx → Ideal .f32)
    (b : Fin 512 → Ideal .f32) (p : Fin 50000) (q : Fin 512) :
    dense H Wt b (ix2 p q) = leaky (affine H Wt b p q) := rfl

end Cert.Dense

end
-- ==== Proof.RefLayer.lean ====
/-
  The reference's result is the dense layer of its own intermediate values.

  After the propagation the reference multiplies the features by the transposed weights, adds the bias to every row,
  and keeps each entry where it is at least zero and one tenth of it elsewhere.  Read at `(p, q)`: the product is the sum
  over the 128 contracted coordinates of `features[p, k] · weightsᵀ[k, q]`, the repeated bias is `b[q]`, and the choice
  is the rectifier — the layer of the specification, of the reference's own propagated features and transposed weights.
-/
import proofs.«169986_j15135464751432_1_alg».proof.Proof.RefRead
import proofs.«169986_j15135464751432_1_alg».proof.Proof.Dense

noncomputable section

namespace Cert.ReferenceIdeal.Layer

open Cert.ReferenceIdeal Cert.ReferenceIdeal.ReadP Idealize.ShloMosaic Idealize.ShloMosaic.ValueIdx

/-- THE REFERENCE'S RESULT, entry by entry, is the rectifier of the affine form of its propagated features, its
    transposed weights and the bias vector. -/
theorem result_eq (x0 : (⟨S50000x128, .f32⟩ : BufTy).Contents (Elt Ideal)) (x1 : (⟨S2x800000, .i32⟩ : BufTy).Contents (Elt Ideal))
    (x2 : (⟨S512x128, .f32⟩ : BufTy).Contents (Elt Ideal)) (x3 : (⟨S512, .f32⟩ : BufTy).Contents (Elt Ideal)) :
    val_main_v65 (F := Ideal) x0 x1 x2 x3
      = Cert.Dense.dense (val_main_v55 (F := Ideal) x0 x1) (val_main_v56 (F := Ideal) x2) (fun q => x3 (ix1 q)) := by
  funext i
  obtain ⟨p, q, rfl⟩ : ∃ (p : Fin 50000) (q : Fin 512), i = ix2 p q := ⟨i 0, i 1, eq_ix2 i⟩
  have hl : ∀ k : Fin 128, lidx_main_v57 (ix2 p q) k = ix2 p k := fun k => funext fun a => Fin.ext (by
    match a with
    | ⟨0, _⟩ => rfl
    | ⟨1, _⟩ => rfl)
  have hr : ∀ k : Fin 128, ridx_main_v57 (ix2 p q) k = ix2 k q := fun k => funext fun a => Fin.ext (by
    match a with
    | ⟨0, _⟩ => rfl
    | ⟨1, _⟩ => rfl)
  have hb : idx_main_v58 (idx_main_v59 (ix2 p q)) = ix1 q := funext fun a => Fin.ext (by
    match a with
    | ⟨0, _⟩ => rfl)
  rw [val_main_v65_apply, val_main_v62_apply, val_main_v64_apply, val_main_v60_apply, val_main_v57_apply,
    val_main_v59_apply, val_main_v58_apply, val_main_v61_apply, val_main_v63_apply, val_main_cst_12_apply,
    val_main_cst_13_apply]
  simp only [hl, hr, hb]
  rfl

end Cert.ReferenceIdeal.Layer

end
-- ==== Proof.LibLayout.lean ====
/-
  Layout operations of small rank read at an index written by coordinates, and a row sum.

  A column vector `[a, 1]` made from a vector `[a]`, a column broadcast along the rows of a matrix `[a, b]`, and the
  sum of a matrix's rows by a reduction over its second axis: each read at `ix1` / `ix2` coordinates.
-/
import Idealize.ShloMosaic.Lib.Pipeline.Value
import Idealize.ShloMosaic.Lib.ValueIdx
import Idealize.ShloMosaic.Lib.ValueLayout
import Idealize.ShloMosaic.PureOps.Ideal.Laws

namespace Cert.LibLayout

open Idealize.ShloMosaic Idealize.ShloMosaic.ValueIdx

variable {α : Type}

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The sum over the second axis of a matrix of extended reals, read at row `n`: the row's sum. -/
theorem multiReduction_add_rows {a b : ℕ} (src : FVec Ideal ⟨2, ![a, b]⟩ .f32) (acc : BitVec 32)
    (h : (⟨2, ![a, b]⟩ : Shape).Reduces [1] ⟨1, ![a]⟩) (hφ : FKind.Formats FTy.f32) (hacc : acc = FKind.add.neutral FTy.f32 hφ)
    (n : Fin a) :
    multiReduction .add [1] ⟨1, ![a]⟩ src acc h hφ hacc (ix1 n) = ∑ k : Fin b, src (ix2 n k) := by
  refine (Ideal.multiReduction_add_single src acc h hφ hacc (ix1 n)).trans ?_
  refine Finset.sum_congr rfl fun k _ => ?_
  exact congrArg src (funext fun ax => Fin.ext (by match ax with | ⟨0, _⟩ => rfl | ⟨1, _⟩ => rfl))

/-- The maximum over the second axis of a matrix of extended reals, read at row `n`: the fold of `max` over the row
    from the accumulator's value. -/
theorem multiReduction_max_rows {a b : ℕ} (src : FVec Ideal ⟨2, ![a, b]⟩ .f32) (acc : BitVec 32)
    (h : (⟨2, ![a, b]⟩ : Shape).Reduces [1] ⟨1, ![a]⟩) (hφ : FKind.Formats FTy.f32) (hacc : acc = FKind.maximumf.neutral FTy.f32 hφ)
    (n : Fin a) :
    multiReduction .maximumf [1] ⟨1, ![a]⟩ src acc h hφ hacc (ix1 n)
      = (Finset.univ : Finset (Fin b)).fold max (Ideal.ofBits .f32 acc) (fun k => src (ix2 n k)) := by
  refine (Ideal.multiReduction_maximumf_single src acc h hφ hacc (ix1 n)).trans ?_
  refine congrArg (Finset.fold max (Ideal.ofBits .f32 acc) · Finset.univ) (funext fun k => ?_)
  exact congrArg src (funext fun ax => Fin.ext (by match ax with | ⟨0, _⟩ => rfl | ⟨1, _⟩ => rfl))

/-- The row sum and the row maximum with the accumulator's word and its proof spelt as a printed body spells them (the
    zero word; the `-∞` word), so that they rewrite a printed reduction where it stands. -/
theorem sum_rows_apply {a b : ℕ} (src : FVec Ideal ⟨2, ![a, b]⟩ .f32)
    (h : (⟨2, ![a, b]⟩ : Shape).Reduces [1] ⟨1, ![a]⟩) (hφ : FKind.Formats FTy.f32)
    (hacc : (0x00000000#32 : BitVec 32) = 0x00000000#32) (n : Fin a) :
    multiReduction .add [1] ⟨1, ![a]⟩ src 0x00000000#32 h hφ hacc (ix1 n) = ∑ k : Fin b, src (ix2 n k) :=
  multiReduction_add_rows src 0x00000000#32 h hφ hacc n

theorem max_rows_apply {a b : ℕ} (src : FVec Ideal ⟨2, ![a, b]⟩ .f32)
    (h : (⟨2, ![a, b]⟩ : Shape).Reduces [1] ⟨1, ![a]⟩) (hφ : FKind.Formats FTy.f32)
    (hacc : (0xFF800000#32 : BitVec 32) = 0xFF800000#32) (n : Fin a) :
    multiReduction .maximumf [1] ⟨1, ![a]⟩ src 0xFF800000#32 h hφ hacc (ix1 n)
      = (Finset.univ : Finset (Fin b)).fold max (Ideal.ofBits .f32 0xFF800000#32) (fun k => src (ix2 n k)) :=
  multiReduction_max_rows src 0xFF800000#32 h hφ hacc n

/-- A vector `[b]` laid as one row and repeated down the rows of `[a, b]` reads, at `(p, c)`, the vector at `c`
    (a bias added to every row). -/
theorem rowBias_apply {a b : ℕ} (v : (⟨1, ![b]⟩ : Shape).Idx → α) (h1 : (⟨1, ![b]⟩ : Shape).ShapeCasts ⟨2, ![1, b]⟩)
    (h2 : (⟨2, ![1, b]⟩ : Shape).Broadcasts ⟨2, ![a, b]⟩) (p : Fin a) (c : Fin b) :
    broadcastTo ⟨2, ![a, b]⟩ (shapeCast ⟨2, ![1, b]⟩ v h1) h2 (ix2 p c) = v (ix1 c) :=
  (broadcastTo_1b_ab_apply _ h2 p c).trans (shapeCast_a_1a_apply v h1 0 c)

/-- A matrix product of rows with rows (`A · Bᵀ`: the second axis of each operand contracted) into a zero accumulator,
    on the extended reals: entry `(p, q)` is the sum over `k` of `A[p, k] · B[q, k]`.  The record's own facts (one
    contracted axis of extent `K`; the free axes' coordinates) are hypotheses, closed at a literal record by
    `rfl` and by unfolding the index functions. -/
theorem matmul_rows_rows_apply {M K N : ℕ} {φ₁ φ₂ : FTy} (d : DotDims ⟨2, ![M, K]⟩ ⟨2, ![N, K]⟩ ⟨2, ![M, N]⟩)
    (hr : d.contr.rank = 1) (hs : d.contr.size ⟨0, by omega⟩ = K)
    (hlc : d.lhsContracting = [1]) (hrc : d.rhsContracting = [1])
    (hl0 : ∀ j k, (d.lhsIdx j k 0).val = (j 0).val) (hr0 : ∀ j k, (d.rhsIdx j k 0).val = (j 1).val)
    (prec : Option ContractPrecision) (lhs : FVec Ideal ⟨2, ![M, K]⟩ φ₁) (rhs : FVec Ideal ⟨2, ![N, K]⟩ φ₂) (p : Fin M) (q : Fin N) :
    matmul d prec lhs rhs (constant ⟨2, ![M, N]⟩ .f32 0x00000000#32) (ix2 p q) = ∑ k : Fin K, lhs (ix2 p k) * rhs (ix2 q k) := by
  refine (Ideal.matmul_constant_zero_apply d prec lhs rhs (ix2 p q)).trans ?_
  rw [← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact hl0 _ _
    | ⟨1, _⟩ => exact (d.lhsIdx_val_of_single hlc _ _).trans hk)
  have er : d.rhsIdx (ix2 p q) ((contrEquiv1 d K hr hs).symm k) = ix2 q k := funext fun a => Fin.ext (by
    match a with
    | ⟨0, _⟩ => exact hr0 _ _
    | ⟨1, _⟩ => exact (d.rhsIdx_val_of_single hrc _ _).trans hk)
  rw [el, er]

/-- A matrix product of rows with columns (`A · B`: the left operand's second axis against the right operand's first)
    into a zero accumulator, on the extended reals: entry `(p, q)` is the sum over `k` of `A[p, k] · B[k, q]`. -/
theorem matmul_rows_cols_apply {M K N : ℕ} {φ₁ φ₂ : FTy} (d : DotDims ⟨2, ![M, K]⟩ ⟨2, ![K, N]⟩ ⟨2, ![M, N]⟩)
    (hr : d.contr.rank = 1) (hs : d.contr.size ⟨0, by omega⟩ = K)
    (hlc : d.lhsContracting = [1]) (hrc : d.rhsContracting = [0])
    (hl0 : ∀ j k, (d.lhsIdx j k 0).val = (j 0).val) (hr1 : ∀ j k, (d.rhsIdx j k 1).val = (j 1).val)
    (prec : Option ContractPrecision) (lhs : FVec Ideal ⟨2, ![M, K]⟩ φ₁) (rhs : FVec Ideal ⟨2, ![K, N]⟩ φ₂) (p : Fin M) (q : Fin N) :
    matmul d prec lhs rhs (constant ⟨2, ![M, N]⟩ .f32 0x00000000#32) (ix2 p q) = ∑ k : Fin K, lhs (ix2 p k) * rhs (ix2 k q) := by
  refine (Ideal.matmul_constant_zero_apply d prec lhs rhs (ix2 p q)).trans ?_
  rw [← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact hl0 _ _
    | ⟨1, _⟩ => exact (d.lhsIdx_val_of_single hlc _ _).trans hk)
  have er : d.rhsIdx (ix2 p q) ((contrEquiv1 d K hr hs).symm k) = ix2 k q := funext fun a => Fin.ext (by
    match a with
    | ⟨0, _⟩ => exact (d.rhsIdx_val_of_single hrc _ _).trans hk
    | ⟨1, _⟩ => exact hr1 _ _)
  rw [el, er]

/-- A vector cut from `o` reads, at `j`, the source at `o + j`. -/
theorem slice1_eq {n0 m : Nat} (o : Nat) (X : (⟨1, ![n0]⟩ : Shape).Idx → α)
    (h : (⟨1, ![n0]⟩ : Shape).Slices ![o] ⟨1, ![m]⟩) (j : Fin m) :
    extractStridedSlice ⟨1, ![m]⟩ ![o] X h (ix1 j)
      = X (ix1 ⟨o + j.val, Nat.lt_of_lt_of_le (Nat.add_lt_add_left j.isLt o) (h.2 0)⟩) :=
  extractStridedSlice_apply _ _ _ _ _ (fun ax => by
    match ax with
    | ⟨0, _⟩ => rfl)

/-- A column `[a, 1]` read back as the vector `[a]`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- A sum over 512 terms is the sum of its eight runs of 64. -/
theorem sum_512_eq_8x64 {M : Type*} [AddCommMonoid M] (f : Fin 512 → M) :
    ∑ r : Fin 512, f r = ∑ c : Fin 8, ∑ j : Fin 64, f ⟨64 * c.val + j.val, by omega⟩ := by
  have e := Equiv.sum_comp (finProdFinEquiv (m := 8) (n := 64)) (fun r : Fin (8 * 64) => f r)
  rw [show (∑ r : Fin 512, f r) = ∑ r : Fin (8 * 64), f r from rfl, ← e, Fintype.sum_prod_type]
  refine Finset.sum_congr rfl fun c _ => Finset.sum_congr rfl fun j _ => congrArg f (Fin.ext ?_)
  show j.val + 64 * c.val = 64 * c.val + j.val
  omega

/-- The same sum as an accumulation from zero of the eight runs, in order. -/
theorem sum_512_chunks {M : Type*} [AddCommMonoid M] (f : Fin 512 → M) :
    ∑ r : Fin 512, f r =
      0 + (∑ j : Fin 64, f ⟨0 + j.val, by omega⟩) + (∑ j : Fin 64, f ⟨64 + j.val, by omega⟩)
        + (∑ j : Fin 64, f ⟨128 + j.val, by omega⟩) + (∑ j : Fin 64, f ⟨192 + j.val, by omega⟩)
        + (∑ j : Fin 64, f ⟨256 + j.val, by omega⟩) + (∑ j : Fin 64, f ⟨320 + j.val, by omega⟩)
        + (∑ j : Fin 64, f ⟨384 + j.val, by omega⟩) + (∑ j : Fin 64, f ⟨448 + j.val, by omega⟩) := by
  rw [sum_512_eq_8x64, Fin.sum_univ_eight, zero_add]
  rfl

end Cert.LibLayout
-- ==== Proof.Payload.lean ====
/-
  The kernel body's stored value, entry by entry, on the extended reals.

  The body loads a block of 2000 feature rows `x0` (2000 × 128), the transposed weights `x1` (128 × 512) and the bias
  row `x2` (1 × 512), and stores `ℓ (x0 · x1 + x2)`: the two narrowings to a 16-bit float format are the identity on
  the extended reals, the matrix product into a zero accumulator is the sum over the contracted axis, and the bias
  row is repeated down the 2000 rows.  So entry `(p, q)` of the stored block is the rectifier of
  `∑ k, x0[p, k] · x1[k, q] + x2[0, q]`.
-/
import proofs.«169986_j15135464751432_1_alg».proof.Proof.Gen.KernelIdeal.Skeleton
import proofs.«169986_j15135464751432_1_alg».proof.Proof.Dense
import proofs.«169986_j15135464751432_1_alg».proof.Proof.LibLayout
import Idealize.ShloMosaic.Lib.ValueLayout
import Idealize.ShloMosaic.Lib.Pipeline.Value

noncomputable section

namespace Cert.KernelIdeal.Body

open Cert.KernelIdeal Cert.KernelIdeal.Gen Idealize.ShloMosaic Idealize.ShloMosaic.ValueIdx

/-- The product's left free axis: entry `(p, q)` reads row `p` of the left operand. -/
theorem lhs_row (j : S2000x512.Idx) (k : dot_S2000x128_S128x512_S2000x512_1_0_0_1_n_n.contr.Idx) :
    (dot_S2000x128_S128x512_S2000x512_1_0_0_1_n_n.lhsIdx j k 0).val = (j 0).val := by
  unfold DotDims.lhsIdx
  rw [dif_neg (show ¬(0 : Fin S2000x128.rank) ∈ dot_S2000x128_S128x512_S2000x512_1_0_0_1_n_n.lhsBatch by decide),
    dif_pos (show (0 : Fin S2000x128.rank) ∈ dot_S2000x128_S128x512_S2000x512_1_0_0_1_n_n.lhsNonContracting by decide)]
  rfl

/-- The product's right free axis: entry `(p, q)` reads column `q` of the right operand. -/
theorem rhs_col (j : S2000x512.Idx) (k : dot_S2000x128_S128x512_S2000x512_1_0_0_1_n_n.contr.Idx) :
    (dot_S2000x128_S128x512_S2000x512_1_0_0_1_n_n.rhsIdx j k 1).val = (j 1).val := by
  unfold DotDims.rhsIdx
  rw [dif_neg (show ¬(1 : Fin S128x512.rank) ∈ dot_S2000x128_S128x512_S2000x512_1_0_0_1_n_n.rhsBatch by decide),
    dif_pos (show (1 : Fin S128x512.rank) ∈ dot_S2000x128_S128x512_S2000x512_1_0_0_1_n_n.rhsNonContracting by decide)]
  rfl

/-- The block product at `(p, q)`: the sum over the 128 contracted coordinates. -/
theorem product_apply (a : FVec Ideal S2000x128 .bf16) (w : FVec Ideal S128x512 .bf16) (p : Fin 2000) (q : Fin 512) :
    matmul dot_S2000x128_S128x512_S2000x512_1_0_0_1_n_n none a w (constant S2000x512 .f32 0x00000000#32) (ix2 p q)
      = ∑ k : Fin 128, a (ix2 p k) * w (ix2 k q) :=
  Cert.LibLayout.matmul_rows_cols_apply dot_S2000x128_S128x512_S2000x512_1_0_0_1_n_n rfl rfl rfl rfl lhs_row rhs_col none a w p q

/-- The bias row repeated down the rows reads, at `(p, q)`, the row's entry `q`. -/
theorem bias_apply (x2 : Vec Ideal S1x512 .f32) (p : Fin 2000) (q : Fin 512) :
    broadcastTo S2000x512 (shapeCast S1x512 x2 shapeCasts_S1x512_S1x512) broadcasts_S1x512_S2000x512 (ix2 p q)
      = x2 (ix2 (0 : Fin 1) q) := by
  rw [shapeCast_self]
  exact broadcastTo_1b_ab_apply x2 broadcasts_S1x512_S2000x512 p q

/-- THE STORED VALUE at `(p, q)`: the rectifier of row `p` of the features against column `q` of the weights plus the
    bias at `q`. -/
theorem stored_apply (x0 : Vec Ideal S2000x128 .f32) (x1 : Vec Ideal S128x512 .f32) (x2 : Vec Ideal S1x512 .f32)
    (p : Fin 2000) (q : Fin 512) :
    k0_pay1 (F := Ideal) x0 x1 x2 (ix2 p q)
      = Cert.Dense.leaky ((∑ k : Fin 128, x0 (ix2 p k) * x1 (ix2 k q)) + x2 (ix2 (0 : Fin 1) q)) := by
  have hprod := product_apply (truncf .bf16 x0 bitsLt_bf16_f32) (truncf .bf16 x1 bitsLt_bf16_f32) p q
  have hbias := broadcastTo_1b_ab_apply x2 broadcasts_S1x512_S2000x512 p q
  unfold k0_pay1
  dsimp only [select, cmpf, mulf, addf, broadcast]
  simp only [shapeCast_self]
  rw [hprod, hbias]
  rfl

/-- The same at any index of the block whose two coordinates are `p` and `q`. -/
theorem stored_at (x0 : Vec Ideal S2000x128 .f32) (x1 : Vec Ideal S128x512 .f32) (x2 : Vec Ideal S1x512 .f32)
    (j : S2000x512.Idx) (p : Fin 2000) (q : Fin 512) (hp : (j 0).val = p.val) (hq : (j 1).val = q.val) :
    k0_pay1 (F := Ideal) x0 x1 x2 j
      = Cert.Dense.leaky ((∑ k : Fin 128, x0 (ix2 p k) * x1 (ix2 k q)) + x2 (ix2 (0 : Fin 1) q)) := by
  have hj : j = ix2 p q := funext fun a => Fin.ext (by
    match a with
    | ⟨0, _⟩ => exact hp
    | ⟨1, _⟩ => exact hq)
  rw [hj]
  exact stored_apply x0 x1 x2 p q

end Cert.KernelIdeal.Body

end
-- ==== Proof.Blocks.lean ====
/-
  From the blocks the grid points write to the whole result array.

  The grid has 25 points.  Point `t` reads rows `2000 t … 2000 t + 1999` of the feature matrix, the whole matrix of
  transposed weights and the whole bias row, and writes rows `2000 t … 2000 t + 1999` of the result.  Entry `(r, q)` of
  what it writes is the rectifier of row `r` of its feature block against column `q` of the weights plus the bias at `q`
  — which is entry `(2000 t + r, q)` of the dense layer of the three whole arrays.  The 25 row blocks tile the 50000 rows
  (row `R` lies in block `R / 2000`), so the result array ends as that layer, whole.

  The three arrays are whatever the region finds; nothing here depends on how they were computed, and every block
  read is stated for an arbitrary array.
-/
import proofs.«169986_j15135464751432_1_alg».proof.Proof.Gen.KernelIdeal.Value
import proofs.«169986_j15135464751432_1_alg».proof.Proof.Payload
import Idealize.ShloMosaic.Lib.Pipeline.Value
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.Layer

open Cert.KernelIdeal Cert.KernelIdeal.Gen Cert.KernelIdeal.Value

variable (m : (ℓ : Loc nD τ sig) → Buf (Elt Ideal) ℓ) (ρ : Dev nD → PrngReg)

theorem hz : (![0, 0] : Fin 2 → Nat) = fun _ => 0 := funext fun a => by fin_cases a <;> rfl

/-- The entries of a one-row matrix as a vector. -/
def rowOf (B : S1x512.Idx → Ideal .f32) : Fin 512 → Ideal .f32 := fun q => B (ix2 (0 : Fin 1) q)

/-- The dense layer of a feature matrix, a matrix of transposed weights and a bias row. -/
def layerOf (H : S50000x128.Idx → Ideal .f32) (Wt : S128x512.Idx → Ideal .f32) (B : S1x512.Idx → Ideal .f32) :
    S50000x512.Idx → Ideal .f32 :=
  Cert.Dense.dense H Wt (rowOf B)

/-- The index maps over the 25 points: the feature window and the result window are at row block `t`, the weights and
    the bias always at block `(0, 0)`. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Row `p` of the feature window's block at point `t`, read off any array, is the array's row `2000 t + p`. -/
theorem feat_read (A : S50000x128.Idx → Ideal .f32) (t : Fin cfg0.N) (p : Fin 2000) (k : Fin 128) (R : Fin 50000)
    (hR : R.val = 2000 * t.val + p.val) :
    (((cfg0.win 0).blk t).view.read (Elt Ideal) A : S2000x128.Idx → Ideal .f32) (ix2 p k) = A (ix2 R k) := by
  obtain ⟨e0, e1, -⟩ := idx_facts t
  show A (((cfg0.win 0).blk t).view.emb (ix2 p k)) = A (ix2 R k)
  have h : ((cfg0.win 0).blk t).view.emb (ix2 p k) = ix2 R k := by
    funext a; apply Fin.ext
    match a with
    | ⟨0, _⟩ => show win0_0.index t (0 : Fin 2) * 2000 + 1 * p.val = R.val; rw [e0, hR]; omega
    | ⟨1, _⟩ => show win0_0.index t (1 : Fin 2) * 128 + 1 * k.val = k.val; rw [e1]; omega
  rw [h]

/-- The weight window's block at every point, read off any array, is the whole array. -/
theorem wts_read (A : S128x512.Idx → Ideal .f32) (t : Fin cfg0.N) (k : Fin 128) (q : Fin 512) :
    (((cfg0.win 1).blk t).view.read (Elt Ideal) A : S128x512.Idx → Ideal .f32) (ix2 k q) = A (ix2 k q) := by
  obtain ⟨-, -, e0, e1, -⟩ := idx_facts t
  show A (((cfg0.win 1).blk t).view.emb (ix2 k q)) = A (ix2 k q)
  have h : ((cfg0.win 1).blk t).view.emb (ix2 k q) = ix2 k q := by
    funext a; apply Fin.ext
    match a with
    | ⟨0, _⟩ => show win0_1.index t (0 : Fin 2) * 128 + 1 * k.val = k.val; rw [e0]; omega
    | ⟨1, _⟩ => show win0_1.index t (1 : Fin 2) * 512 + 1 * q.val = q.val; rw [e1]; omega
  rw [h]

/-- The bias window's block at every point, read off any array, is the whole row. -/
theorem bias_read (A : S1x512.Idx → Ideal .f32) (t : Fin cfg0.N) (q : Fin 512) :
    (((cfg0.win 2).blk t).view.read (Elt Ideal) A : S1x512.Idx → Ideal .f32) (ix2 (0 : Fin 1) q) = A (ix2 (0 : Fin 1) q) := by
  obtain ⟨-, -, -, -, e0, e1, -⟩ := idx_facts t
  show A (((cfg0.win 2).blk t).view.emb (ix2 (0 : Fin 1) q)) = A (ix2 (0 : Fin 1) q)
  have h : ((cfg0.win 2).blk t).view.emb (ix2 (0 : Fin 1) q) = ix2 (0 : Fin 1) q := by
    funext a; apply Fin.ext
    match a with
    | ⟨0, _⟩ => show win0_2.index t (0 : Fin 2) * 1 + 1 * 0 = 0; rw [e0]
    | ⟨1, _⟩ => show win0_2.index t (1 : Fin 2) * 512 + 1 * q.val = q.val; rw [e1]; omega
  rw [h]

/-- Entry `j` of what the body stores at point `t`, from blocks read off ANY three arrays, is entry `(2000 t + j₀, j₁)`
    of the layer of those arrays. -/
theorem stored_eq (H : S50000x128.Idx → Ideal .f32) (Wt : S128x512.Idx → Ideal .f32) (B : S1x512.Idx → Ideal .f32)
    (t : Fin cfg0.N) (j : S2000x512.Idx) (R : Fin 50000) (q : Fin 512)
    (hR : R.val = 2000 * t.val + (j 0).val) (hq : (j 1).val = q.val) :
    k0_pay1 (F := Ideal) (((cfg0.win 0).blk t).view.read (Elt Ideal) H) (((cfg0.win 1).blk t).view.read (Elt Ideal) Wt)
        (((cfg0.win 2).blk t).view.read (Elt Ideal) B) j
      = layerOf H Wt B (ix2 R q) := by
  have hj0 : (j 0).val < 2000 := (j 0).isLt
  refine (Cert.KernelIdeal.Body.stored_at (((cfg0.win 0).blk t).view.read (Elt Ideal) H)
    (((cfg0.win 1).blk t).view.read (Elt Ideal) Wt) (((cfg0.win 2).blk t).view.read (Elt Ideal) B) j ⟨(j 0).val, hj0⟩ q rfl hq).trans ?_
  unfold layerOf
  rw [Cert.Dense.dense_apply]
  unfold Cert.Dense.affine rowOf
  refine congrArg Cert.Dense.leaky ?_
  refine congrArg₂ (· + ·) (Finset.sum_congr rfl fun k _ => ?_) (bias_read B t q)
  rw [feat_read H t ⟨(j 0).val, hj0⟩ k R hR, wts_read Wt t k q]

/-- The layer of the three arrays as the region finds them: the propagated features, the transposed weights and the
    bias row. -/
def layer (c : Dev nD) : S50000x512.Idx → Ideal .f32 :=
  layerOf (V m c (Pipeline.arrRef spec0 0)) (V m c (Pipeline.arrRef spec0 1)) (V m c (Pipeline.arrRef spec0 2))

/-- WHAT POINT `t` WRITES BACK is block `t` of the layer. -/
theorem flushed_eq (c : Dev nD) (t : Fin cfg0.N) :
    (dats m 0 c).flushed 3 t = ((cfg0.win 3).blk t).view.read (Elt Ideal) (layer m c) := by
  rw [Value.flushed3]
  unfold out0_3
  rw [View.canon_unit_zero hz]
  simp only [View.ld_unit_zero (S := S2000x128) hz, View.ld_unit_zero (S := S128x512) hz, View.ld_unit_zero (S := S1x512) hz]
  unfold iblk layer
  have key := stored_eq (V m c (Pipeline.arrRef spec0 0)) (V m c (Pipeline.arrRef spec0 1)) (V m c (Pipeline.arrRef spec0 2)) t
  generalize layerOf (V m c (Pipeline.arrRef spec0 0)) (V m c (Pipeline.arrRef spec0 1)) (V m c (Pipeline.arrRef spec0 2)) = G at key ⊢
  generalize k0_pay1 (F := Ideal) (((cfg0.win 0).blk t).view.read (Elt Ideal) (V m c (Pipeline.arrRef spec0 0)))
    (((cfg0.win 1).blk t).view.read (Elt Ideal) (V m c (Pipeline.arrRef spec0 1)))
    (((cfg0.win 2).blk t).view.read (Elt Ideal) (V m c (Pipeline.arrRef spec0 2))) = P at key ⊢
  obtain ⟨-, -, -, -, -, -, e0, e1⟩ := idx_facts t
  have hN : t.val < 25 := lt_of_lt_of_eq t.isLt N_0
  funext j
  have hj0 : (j 0).val < 2000 := (j 0).isLt
  have hj1 : (j 1).val < 512 := (j 1).isLt
  have hemb : ((cfg0.win 3).blk t).view.emb j
      = ix2 (⟨2000 * t.val + (j 0).val, by omega⟩ : Fin 50000) (⟨(j 1).val, hj1⟩ : Fin 512) := by
    funext a; apply Fin.ext
    match a with
    | ⟨0, _⟩ => show win0_3.index t (0 : Fin 2) * 2000 + 1 * (j 0).val = 2000 * t.val + (j 0).val; rw [e0]; omega
    | ⟨1, _⟩ => show win0_3.index t (1 : Fin 2) * 512 + 1 * (j 1).val = (j 1).val; rw [e1]; omega
  refine (key j ⟨2000 * t.val + (j 0).val, by omega⟩ ⟨(j 1).val, hj1⟩ rfl rfl).trans ?_
  rw [View.read_apply, hemb]
  exact (cast_eq _ _).symm

/-- An index of the result is in point `t`'s block iff its row is among the block's 2000 rows. -/
theorem mem_blk (t : Fin cfg0.N) (i : S50000x512.Idx) :
    i ∈ ((cfg0.win 3).blk t).view.set ↔ ∀ a : Fin 2, win0_3.index t a * S2000x512.size a ≤ (i a).val ∧ (i a).val < win0_3.index t a * S2000x512.size a + S2000x512.size a := by
  show i ∈ ((View.whole main_v58).slice (win0_3.rect t)).set ↔ _
  rw [View.set_slice_whole, Rect.mem_set_unit]
  exact Iff.rfl

/-- Every index of the result is in some point's block: row `R` in block `R / 2000`. -/
theorem cover (i : S50000x512.Idx) : ∃ t : Fin cfg0.N, (cfg0.win 3).flush t = true ∧ i ∈ ((cfg0.win 3).blk t).view.set := by
  have hi0 : (i 0).val < 50000 := (i 0).isLt
  have hi1 : (i 1).val < 512 := (i 1).isLt
  have hN : cfg0.N = 25 := N_0
  have ht : (i 0).val / 2000 < cfg0.N := by rw [hN]; omega
  obtain ⟨-, -, -, -, -, -, e0, e1⟩ := idx_facts ⟨(i 0).val / 2000, ht⟩
  refine ⟨⟨(i 0).val / 2000, ht⟩, flush0_3 _, ?_⟩
  rw [mem_blk]
  intro a
  match a with
  | ⟨0, _⟩ =>
    show win0_3.index ⟨(i 0).val / 2000, ht⟩ (0 : Fin 2) * 2000 ≤ (i 0).val ∧ (i 0).val < win0_3.index ⟨(i 0).val / 2000, ht⟩ (0 : Fin 2) * 2000 + 2000
    rw [e0]
    show (i 0).val / 2000 * 2000 ≤ (i 0).val ∧ (i 0).val < (i 0).val / 2000 * 2000 + 2000
    omega
  | ⟨1, _⟩ =>
    show win0_3.index ⟨(i 0).val / 2000, ht⟩ (1 : Fin 2) * 512 ≤ (i 1).val ∧ (i 1).val < win0_3.index ⟨(i 0).val / 2000, ht⟩ (1 : Fin 2) * 512 + 512
    rw [e1]
    omega

/-- THE RESULT ARRAY after the run is the layer of the arrays as the region finds them. -/
theorem final (c : Dev nD) : (dats m 0 c).arrAt 3 cfg0.N = layer m c :=
  (dats m 0 c).arrAt_eq_of_cover 3 (layer m c) (fun t _ => flushed_eq m c t) cover

/-- The kernel's run, read: the result array at the layer, the arguments unchanged. -/
theorem run : θ_run defs (onTc (τ := τ) (main (F := Ideal))) ⟨m, fun _ => 0, ρ⟩ fun r => ∀ c : Dev nD,
      r.2.mem ((c : Thread nD τ).loc main_v58) = layer m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Value.run_blocks m ρ)

end Cert.KernelIdeal.Layer

end
-- ==== Proof.Entry.lean ====
/-
  The arrays the kernel's region finds, as functions of the arguments.

  Both programs begin with the same host computation: the edge list extended by one self-loop per node, the degree of
  each node as a sum of ones, the inverse square root of each positive degree (zero elsewhere), the symmetric weight
  `d⁻¹ᐟ²[src] · d⁻¹ᐟ²[dst]` of each edge, and two rounds of "gather the source rows, scale by the edge's weight, add
  into the destination rows".  Nothing of this computation is opened here: the features the kernel's region finds are
  the SAME composed term the reference hands to its matrix product, the weights the same transpose, and the bias the
  same vector laid as one row.

  The host operations before the region come in three stretches: up to the degrees' positivity test and inverse
  square roots; the choice between the inverse square root and zero; everything after it.  The choice is read for an
  arbitrary memory before it (what it chooses between plays no part in it), and the third stretch for an arbitrary
  memory after the first two: it depends on them only through the normalising factors, the edges' two end lists and
  the node features.
-/
import proofs.«169986_j15135464751432_1_alg».proof.Proof.Gen.KernelIdeal.Frame
import proofs.«169986_j15135464751432_1_alg».proof.Proof.RefRead
import Idealize.ShloMosaic.Lib.StableHlo.Run
import Idealize.ShloMosaic.Lib.ValueLayout

noncomputable section

open Idealize.ShloMosaic Idealize.ShloMosaic.TcCoe Idealize.SL.Sem Idealize.ShloMosaic.StableHlo Idealize.ShloMosaic.ValueIdx

namespace Cert.KernelIdeal.Entry

open Cert.KernelIdeal Cert.KernelIdeal.Gen

/-- Two stretches of host operations run one after the other. -/
theorem after_append {Val : EltTy → Type} (l1 l2 : List (HloOp τ sig Val)) (W : Valuation τ sig Val) :
    StableHlo.after (l1 ++ l2) W = StableHlo.after l2 (StableHlo.after l1 W) := by
  induction l1 generalizing W with
  | nil => rfl
  | cons op ops ih => simp only [List.cons_append, after_cons]; exact ih _

/-- THE CHOICE, from any memory before it: where the test holds the second value, elsewhere the scalar repeated. -/
theorem choice_eq (W : Valuation τ sig (Elt Ideal)) :
    (StableHlo.after (hostOps0_1 (F := Ideal)) W (Proc.devRef .tc main_v14) : S50000.Idx → Ideal .f32)
      = select (W (Proc.devRef .tc main_v12) : S50000.Idx → BitVec 1) (W (Proc.devRef .tc main_v13) : S50000.Idx → Ideal .f32)
          (broadcastInDim S50000 ![] bcast_S_S50000 (W (Proc.devRef .tc main_cst_2) : S_.Idx → Ideal .f32)) := by
  simp only [hostOps0_1]
  after_results_simp
  rfl

variable (m : (ℓ : Loc nD τ sig) → Buf (Elt Ideal) ℓ)

/-- After the first stretch: the positivity test of the degrees is the reference's. -/
theorem test_eq (c : Dev nD) :
    (StableHlo.after (hostOps0 (F := Ideal)) (fun b => m (c, b)) (Proc.devRef .tc main_v12) : S50000.Idx → BitVec 1)
      = Cert.ReferenceIdeal.ReadP.val_main_v12 (F := Ideal) (m ((c : Thread nD τ).loc main_arg1)) := by
  simp only [hostOps0]
  after_results_simp
  rfl

/-- After the first stretch: the inverse square roots of the degrees are the reference's. -/
theorem rsqrt_eq (c : Dev nD) :
    (StableHlo.after (hostOps0 (F := Ideal)) (fun b => m (c, b)) (Proc.devRef .tc main_v13) : S50000.Idx → Ideal .f32)
      = Cert.ReferenceIdeal.ReadP.val_main_v13 (F := Ideal) (m ((c : Thread nD τ).loc main_arg1)) := by
  simp only [hostOps0]
  after_results_simp
  rfl

/-- After the first stretch: the zero scalar. -/
theorem zero_eq (c : Dev nD) :
    (StableHlo.after (hostOps0 (F := Ideal)) (fun b => m (c, b)) (Proc.devRef .tc main_cst_2) : S_.Idx → Ideal .f32)
      = Cert.ReferenceIdeal.ReadP.val_main_cst_2 (F := Ideal) := by
  simp only [hostOps0]
  after_results_simp
  rfl

/-- After the first two stretches: the normalising factors `d⁻¹ᐟ²` are the reference's. -/
theorem dinv_eq (c : Dev nD) :
    (StableHlo.after (hostOps0 (F := Ideal) ++ hostOps0_1) (fun b => m (c, b)) (Proc.devRef .tc main_v14) : S50000.Idx → Ideal .f32)
      = Cert.ReferenceIdeal.ReadP.val_main_v14 (F := Ideal) (m ((c : Thread nD τ).loc main_arg1)) := by
  rw [after_append, choice_eq, test_eq, rsqrt_eq, zero_eq]
  rfl

/-- After the first two stretches: the edges' sources (with the self-loops) are the reference's. -/
theorem src_eq (c : Dev nD) :
    (StableHlo.after (hostOps0 (F := Ideal) ++ hostOps0_1) (fun b => m (c, b)) (Proc.devRef .tc main_v3) : S850000.Idx → BitVec 32)
      = Cert.ReferenceIdeal.ReadP.val_main_v3 (F := Ideal) (m ((c : Thread nD τ).loc main_arg1)) := by
  simp only [hostOps0, hostOps0_1, List.cons_append, List.nil_append]
  after_results_simp
  rfl

/-- After the first two stretches: the edges' destinations (with the self-loops) are the reference's. -/
theorem dst_eq (c : Dev nD) :
    (StableHlo.after (hostOps0 (F := Ideal) ++ hostOps0_1) (fun b => m (c, b)) (Proc.devRef .tc main_v6) : S850000.Idx → BitVec 32)
      = Cert.ReferenceIdeal.ReadP.val_main_v6 (F := Ideal) (m ((c : Thread nD τ).loc main_arg1)) := by
  simp only [hostOps0, hostOps0_1, List.cons_append, List.nil_append]
  after_results_simp
  rfl

/-- The first two stretches leave the node features as launched. -/
theorem x_eq (c : Dev nD) :
    (StableHlo.after (hostOps0 (F := Ideal) ++ hostOps0_1) (fun b => m (c, b)) (Proc.devRef .tc main_arg0) : S50000x128.Idx → Ideal .f32)
      = (m ((c : Thread nD τ).loc main_arg0)) := by
  simp only [hostOps0, hostOps0_1, List.cons_append, List.nil_append]
  after_results_simp

set_option maxHeartbeats 4000000 in
/-- THE PROPAGATED FEATURES at region entry are the reference's propagated features of the same arguments: the third
    stretch applied to the normalising factors, the sources, the destinations and the node features. -/
theorem feat_eq (c : Dev nD) :
    (V m c main_v55 : S50000x128.Idx → Ideal .f32)
      = Cert.ReferenceIdeal.ReadP.val_main_v55 (F := Ideal) (m ((c : Thread nD τ).loc main_arg0)) (m ((c : Thread nD τ).loc main_arg1)) := by
  have h14 := dinv_eq m c
  have h3 := src_eq m c
  have h6 := dst_eq m c
  have h0 := x_eq m c
  dsimp only [V]
  rw [show List.flatten [hostOps0 (F := Ideal), hostOps0_1, hostOps0_2] = (hostOps0 ++ hostOps0_1) ++ hostOps0_2 from by
    simp only [List.flatten_cons, List.flatten_nil, List.append_nil, List.append_assoc], after_append]
  generalize StableHlo.after (hostOps0 (F := Ideal) ++ hostOps0_1) (fun b => m (c, b)) = W at h14 h3 h6 h0 ⊢
  simp only [hostOps0_2]
  after_results_simp
  rw [h14, h3, h6, h0]
  rfl

set_option maxHeartbeats 4000000 in
/-- The weights at region entry are the reference's transposed weights. -/
theorem wts_eq (c : Dev nD) :
    (V m c main_v56 : S128x512.Idx → Ideal .f32)
      = Cert.ReferenceIdeal.ReadP.val_main_v56 (F := Ideal) (m ((c : Thread nD τ).loc main_arg2)) := by
  dsimp only [V]
  simp only [hostOps0, hostOps0_1, hostOps0_2, List.flatten_cons, List.flatten_nil, List.append_nil, List.cons_append,
    List.nil_append]
  after_results_simp
  rfl

set_option maxHeartbeats 4000000 in
/-- The bias row at region entry is the bias vector cast to one row. -/
theorem bias_eq (c : Dev nD) :
    (V m c main_v57 : S1x512.Idx → Ideal .f32)
      = shapeCast S1x512 ((m ((c : Thread nD τ).loc main_arg3)) : S512.Idx → Ideal .f32) shapeCasts_S512_S1x512 := by
  dsimp only [V]
  simp only [hostOps0, hostOps0_1, hostOps0_2, List.flatten_cons, List.flatten_nil, List.append_nil, List.cons_append,
    List.nil_append]
  after_results_simp
  rfl

/-- Entry `q` of the bias row is entry `q` of the bias vector. -/
theorem bias_apply (c : Dev nD) (q : Fin 512) :
    (V m c main_v57 : S1x512.Idx → Ideal .f32) (ix2 (0 : Fin 1) q)
      = ((m ((c : Thread nD τ).loc main_arg3)) : S512.Idx → Ideal .f32) (ix1 q) := by
  rw [bias_eq]
  exact shapeCast_a_1a_apply _ shapeCasts_S512_S1x512 0 q

end Cert.KernelIdeal.Entry

end
-- ==== Proof.lean ====
/-
  Equivalence over the extended reals of a graph encoder's kernel and its reference.

  Both programs propagate node features over a graph twice with the symmetric normalisation `D⁻¹ᐟ² (A + I) D⁻¹ᐟ²`
  (the same host computation, operation for operation), then apply a dense layer `y = h · Wᵀ + b` and the leaky
  rectifier `y ↦ y` where `y ≥ 0`, `0.1 · y` elsewhere.  The reference does the dense layer on the host: one matrix
  product of the 50000 × 128 features with the transposed weights, the bias repeated down the rows, a comparison and a
  choice.  The kernel does it in 25 grid points of 2000 rows each: the features and the weights narrowed to a 16-bit
  float format (the identity on the extended reals), a matrix product into a zero accumulator, the bias row repeated,
  the same comparison and choice with the same two literal words.

  On the extended reals both are the rectifier of `∑ k, h[p, k] · Wᵀ[k, q] + b[q]` at every `(p, q)` (module Dense): the
  reference by reading its operations at an index (module RefLayer), the kernel by reading what each grid point stores
  (Payload) and tiling the 25 row blocks (Blocks); the features `h`, the transposed weights and the bias the kernel's
  region finds are the reference's own (Entry).  The sums are over a commutative monoid and nothing is distributed or
  cancelled, so the finiteness of the inputs is never used.  The idealization changed no operation, so there is
  nothing to preserve; the three frames are the generated frame runs.
-/
import proofs.«169986_j15135464751432_1_alg».proof.Defs
import proofs.«169986_j15135464751432_1_alg».proof.Proof.Gen.Kernel
import proofs.«169986_j15135464751432_1_alg».proof.Proof.Gen.Kernel.Frame
import proofs.«169986_j15135464751432_1_alg».proof.Proof.Gen.KernelIdeal
import proofs.«169986_j15135464751432_1_alg».proof.Proof.Gen.KernelIdeal.Frame
import proofs.«169986_j15135464751432_1_alg».proof.Proof.Gen.KernelIdeal.Value
import proofs.«169986_j15135464751432_1_alg».proof.Proof.Gen.ReferenceIdeal
import proofs.«169986_j15135464751432_1_alg».proof.Proof.Gen.Pre_finite_inputs
import proofs.«169986_j15135464751432_1_alg».proof.Proof.RefRun
import proofs.«169986_j15135464751432_1_alg».proof.Proof.RefRead
import proofs.«169986_j15135464751432_1_alg».proof.Proof.RefLayer
import proofs.«169986_j15135464751432_1_alg».proof.Proof.Blocks
import proofs.«169986_j15135464751432_1_alg».proof.Proof.Entry
import Idealize.ShloMosaic.Adequacy
import Idealize.ShloMosaic.Init

noncomputable section

namespace Cert.Proof

open Idealize.ShloMosaic Idealize.ShloMosaic.TcCoe Idealize.SL.Sem Idealize.ShloMosaic.ValueIdx

/-- The layer of the arrays the kernel's region finds is the layer of the reference's propagated features, its
    transposed weights and the bias vector, of the same arguments. -/
theorem layer_eq (m : (ℓ : Loc Cert.KernelIdeal.nD Cert.KernelIdeal.τ Cert.KernelIdeal.sig) → Buf (Elt Ideal) ℓ) (c : Dev Cert.KernelIdeal.nD) :
    Cert.KernelIdeal.Layer.layer m c
      = Cert.Dense.dense
          (Cert.ReferenceIdeal.ReadP.val_main_v55 (F := Ideal) (m ((c : Thread Cert.KernelIdeal.nD Cert.KernelIdeal.τ).loc Cert.KernelIdeal.main_arg0))
            (m ((c : Thread Cert.KernelIdeal.nD Cert.KernelIdeal.τ).loc Cert.KernelIdeal.main_arg1)))
          (Cert.ReferenceIdeal.ReadP.val_main_v56 (F := Ideal) (m ((c : Thread Cert.KernelIdeal.nD Cert.KernelIdeal.τ).loc Cert.KernelIdeal.main_arg2)))
          (fun q => (m ((c : Thread Cert.KernelIdeal.nD Cert.KernelIdeal.τ).loc Cert.KernelIdeal.main_arg3) : Cert.KernelIdeal.S512.Idx → Ideal .f32) (ix1 q)) := by
  have e0 : (Cert.KernelIdeal.Gen.V m c (Pipeline.arrRef Cert.KernelIdeal.spec0 0) : Cert.KernelIdeal.S50000x128.Idx → Ideal .f32)
      = Cert.ReferenceIdeal.ReadP.val_main_v55 (F := Ideal) (m ((c : Thread Cert.KernelIdeal.nD Cert.KernelIdeal.τ).loc Cert.KernelIdeal.main_arg0))
          (m ((c : Thread Cert.KernelIdeal.nD Cert.KernelIdeal.τ).loc Cert.KernelIdeal.main_arg1)) :=
    Cert.KernelIdeal.Entry.feat_eq m c
  have e1 : (Cert.KernelIdeal.Gen.V m c (Pipeline.arrRef Cert.KernelIdeal.spec0 1) : Cert.KernelIdeal.S128x512.Idx → Ideal .f32)
      = Cert.ReferenceIdeal.ReadP.val_main_v56 (F := Ideal) (m ((c : Thread Cert.KernelIdeal.nD Cert.KernelIdeal.τ).loc Cert.KernelIdeal.main_arg2)) :=
    Cert.KernelIdeal.Entry.wts_eq m c
  have e2 : ∀ q : Fin 512, (Cert.KernelIdeal.Gen.V m c (Pipeline.arrRef Cert.KernelIdeal.spec0 2) : Cert.KernelIdeal.S1x512.Idx → Ideal .f32) (ix2 (0 : Fin 1) q)
      = (m ((c : Thread Cert.KernelIdeal.nD Cert.KernelIdeal.τ).loc Cert.KernelIdeal.main_arg3) : Cert.KernelIdeal.S512.Idx → Ideal .f32) (ix1 q) :=
    Cert.KernelIdeal.Entry.bias_apply m c
  unfold Cert.KernelIdeal.Layer.layer Cert.KernelIdeal.Layer.layerOf
  rw [e0, e1]
  refine congrArg _ (funext fun q => ?_)
  unfold Cert.KernelIdeal.Layer.rowOf
  exact e2 q

theorem frame_kernel : Cert.frame_Kernel := fun m ρ _ => Cert.Kernel.Gen.frame m ρ

theorem frame_kernel_ideal : Cert.frame_KernelIdeal := fun m ρ _ => Cert.KernelIdeal.Gen.frame m ρ

/-- The reference has no kernel: its frame is its run with the result dropped. -/
theorem frame_reference : Cert.frame_ReferenceIdeal := fun m ρ _ =>
  (θ_run Cert.ReferenceIdeal.defs _ _).mono (fun _ h c => (h c).2) (Cert.ReferenceIdeal.ValueP.run (F := Ideal) m ρ)

/-- The idealization rewrote no operation. -/
theorem preserves : Cert.preserves_Kernel_KernelIdeal := trivial

/-- From memories agreeing on the four arguments both programs end with the dense layer, rectified, of the propagated
    features of those arguments. -/
theorem algebraic : Cert.algebraic_KernelIdeal_ReferenceIdeal := by
  intro m ρ m' ρ' _ hagree
  refine ⟨fun c => Cert.KernelIdeal.Layer.layer m c, Cert.KernelIdeal.Layer.run m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v65_eq, Cert.ReferenceIdeal.Layer.result_eq, (hagree c).1, (hagree c).2.1,
    (hagree c).2.2.1, (hagree c).2.2.2]
  exact (layer_eq m c).symm

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
